-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024 : Shape := ⟨2, ![8, 1024]⟩
abbrev S8x1024x1024 : Shape := ⟨3, ![8, 1024, 1024]⟩
abbrev S1x1024x1024 : Shape := ⟨3, ![1, 1024, 1024]⟩
abbrev S512x1024 : Shape := ⟨2, ![512, 1024]⟩
abbrev S512 : Shape := ⟨1, ![512]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S512x1024 .f32) (main_arg9 : FVec F S512 .f32) (main_v33 : IVec S_ 1) : IVec S_ 1 :=
  let main_v34 : FVec F S512x1024 .f32 := Host.absf main_arg8
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg5 : FVec F S1x1024x1024 .f32) (main_arg6 : FVec F S1x1024x1024 .f32) (main_arg7 : FVec F S1x1024x1024 .f32) (main_arg8 : FVec F S512x1024 .f32) (main_arg9 : FVec F S512 .f32) (main_v13 : IVec S_ 1) (main_v16 : IVec S1x1024x1024 1) : IVec S_ 1 :=
  let main_c_5 : IVec S_ 1 := constantI S_ 1 1#1
  let main_v17 : IVec S_ 1 := (fun x v => Host.reduce IntOp.andi x v reducesTo_S1x1024x1024_S_d0_1_2 h_S_) main_v16 main_c_5
  let main_v18 : IVec S_ 1 := andi main_v13 main_v17
  let main_v19 : FVec F S1x1024x1024 .f32 := Host.absf main_arg5
  let main_cst_6 : FVec F S_ .f32 := constant S_ .f32 0x7F800000#32
  let main_v20 : FVec F S1x1024x1024 .f32 := broadcastInDim S1x1024x1024 ![] bcast_S_S1x1024x1024 main_cst_6
  let main_v21 : IVec S1x1024x1024 1 := cmpf .olt main_v19 main_v20
  let main_c_7 : IVec S_ 1 := constantI S_ 1 1#1
  let main_v22 : IVec S_ 1 := (fun x v => Host.reduce IntOp.andi x v reducesTo_S1x1024x1024_S_d0_1_2 h_S_) main_v21 main_c_7
  let main_v23 : IVec S_ 1 := andi main_v18 main_v22
  let main_v24 : FVec F S1x1024x1024 .f32 := Host.absf main_arg6
  let main_cst_8 : FVec F S_ .f32 := constant S_ .f32 0x7F800000#32
  let main_v25 : FVec F S1x1024x1024 .f32 := broadcastInDim S1x1024x1024 ![] bcast_S_S1x1024x1024 main_cst_8
  let main_v26 : IVec S1x1024x1024 1 := cmpf .olt main_v24 main_v25
  let main_c_9 : IVec S_ 1 := constantI S_ 1 1#1
  let main_v27 : IVec S_ 1 := (fun x v => Host.reduce IntOp.andi x v reducesTo_S1x1024x1024_S_d0_1_2 h_S_) main_v26 main_c_9
  let main_v28 : IVec S_ 1 := andi main_v23 main_v27
  let main_v29 : FVec F S1x1024x1024 .f32 := Host.absf main_arg7
  let main_cst_10 : FVec F S_ .f32 := constant S_ .f32 0x7F800000#32
  let main_v30 : FVec F S1x1024x1024 .f32 := broadcastInDim S1x1024x1024 ![] bcast_S_S1x1024x1024 main_cst_10
  let main_v31 : IVec S1x1024x1024 1 := cmpf .olt main_v29 main_v30
  let main_c_11 : IVec S_ 1 := constantI S_ 1 1#1
  let main_v32 : IVec S_ 1 := (fun x v => Host.reduce IntOp.andi x v reducesTo_S1x1024x1024_S_d0_1_2 h_S_) main_v31 main_c_11
  let main_v33 : IVec S_ 1 := andi main_v28 main_v32
  fn_part2 (F := F) main_arg8 main_arg9 main_v33

def fn {F : FTy → Type} [FloatOps F] (main_arg0 : IVec S8x1024 32) (main_arg1 : FVec F S8x1024x1024 .f32) (main_arg2 : FVec F S8x1024x1024 .f32) (main_arg3 : FVec F S8x1024x1024 .f32) (main_arg4 : FVec F S1x1024x1024 .f32) (main_arg5 : FVec F S1x1024x1024 .f32) (main_arg6 : FVec F S1x1024x1024 .f32) (main_arg7 : FVec F S1x1024x1024 .f32) (main_arg8 : FVec F S512x1024 .f32) (main_arg9 : FVec F S512 .f32) : IVec S_ 1 :=
  let main_v0 : FVec F S8x1024x1024 .f32 := Host.absf main_arg1
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x1024x1024 .f32 := Host.absf main_arg2
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024x1024 .f32 := Host.absf main_arg3
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S1x1024x1024 .f32 := Host.absf main_arg4
  let main_cst_4 : FVec F S_ .f32 := constant S_ .f32 0x7F800000#32
  let main_v15 : FVec F S1x1024x1024 .f32 := broadcastInDim S1x1024x1024 ![] bcast_S_S1x1024x1024 main_cst_4
  let main_v16 : IVec S1x1024x1024 1 := cmpf .olt main_v14 main_v15
  fn_part1 (F := F) main_arg5 main_arg6 main_arg7 main_arg8 main_arg9 main_v13 main_v16
-- ==== Kernel.lean ====
abbrev S8x1024 : Shape := ⟨2, ![8, 1024]⟩
abbrev S8x1024x1024 : Shape := ⟨3, ![8, 1024, 1024]⟩
abbrev S1x1024x1024 : Shape := ⟨3, ![1, 1024, 1024]⟩
abbrev S512x1024 : Shape := ⟨2, ![512, 1024]⟩
abbrev S512 : Shape := ⟨1, ![512]⟩
abbrev S1x512 : Shape := ⟨2, ![1, 512]⟩
abbrev S8x1x1024 : Shape := ⟨3, ![8, 1, 1024]⟩
abbrev S8x1024x1 : Shape := ⟨3, ![8, 1024, 1]⟩
abbrev S8x1024x512 : Shape := ⟨3, ![8, 1024, 512]⟩
abbrev S1x1x1024 : Shape := ⟨3, ![1, 1, 1024]⟩
abbrev S1x256x1 : Shape := ⟨3, ![1, 256, 1]⟩
abbrev S1x256x1024 : Shape := ⟨3, ![1, 256, 1024]⟩
abbrev S1x256x512 : Shape := ⟨3, ![1, 256, 512]⟩
abbrev S1x1024 : Shape := ⟨2, ![1, 1024]⟩
abbrev S256x1 : Shape := ⟨2, ![256, 1]⟩
abbrev S256x1024 : Shape := ⟨2, ![256, 1024]⟩
abbrev S256x512 : Shape := ⟨2, ![256, 512]⟩

abbrev nBuf : Space → Nat
  | .hbm => 14
  | .vmem => 22
  | .smem => 0
  | _ => 0

abbrev bufTy : (tb : Table) → Fin (tcTables nBuf tb) → BufTy
  | .hbm, ⟨0, _⟩ => ⟨S8x1024, .i32⟩
  | .hbm, ⟨1, _⟩ => ⟨S8x1024x1024, .f32⟩
  | .hbm, ⟨2, _⟩ => ⟨S8x1024x1024, .f32⟩
  | .hbm, ⟨3, _⟩ => ⟨S8x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S512x1024, .f32⟩
  | .hbm, ⟨9, _⟩ => ⟨S512, .f32⟩
  | .hbm, ⟨10, _⟩ => ⟨S1x512, .f32⟩
  | .hbm, ⟨11, _⟩ => ⟨S8x1x1024, .i32⟩
  | .hbm, ⟨12, _⟩ => ⟨S8x1024x1, .i32⟩
  | .hbm, ⟨13, _⟩ => ⟨S8x1024x512, .f32⟩
  | .local _ .vmem, ⟨0, _⟩ => ⟨S1x1x1024, .i32⟩
  | .local _ .vmem, ⟨1, _⟩ => ⟨S1x1x1024, .i32⟩
  | .local _ .vmem, ⟨2, _⟩ => ⟨S1x256x1, .i32⟩
  | .local _ .vmem, ⟨3, _⟩ => ⟨S1x256x1, .i32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S512x1024, .f32⟩
  | .local _ .vmem, ⟨19, _⟩ => ⟨S1x512, .f32⟩
  | .local _ .vmem, ⟨20, _⟩ => ⟨S1x256x512, .f32⟩
  | .local _ .vmem, ⟨21, _⟩ => ⟨S1x256x512, .f32⟩
  | _, _ => ⟨S8x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  shapeCasts_S512_S1x512 : S512.ShapeCasts S1x512
  shapeCasts_S8x1024_S8x1x1024 : S8x1024.ShapeCasts S8x1x1024
  shapeCasts_S8x1024_S8x1024x1 : S8x1024.ShapeCasts S8x1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  broadcasts_S1x1024_S256x1024 : S1x1024.Broadcasts S256x1024
  broadcasts_S256x1_S256x1024 : S256x1.Broadcasts S256x1024
  natLt_1_32 : 1 < 32
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  dot_S256x1024_S512x1024_S256x512_1_1_0_0_n_n_wf : DotDims.WF S256x1024 S512x1024 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S8x1x1024.size a
  hwx0_0 : ∀ i : grid0.Coords, EltTy.bits .i32 = 32 ∨ (Rect.block (s := S8x1x1024) S1x1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S8x1024x1.size a
  hwx0_1 : ∀ i : grid0.Coords, EltTy.bits .i32 = 32 ∨ (Rect.block (s := S8x1024x1) S1x256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x1024x1024.size a
  hwx0_2 : ∀ i : grid0.Coords, EltTy.bits .f32 = 32 ∨ (Rect.block (s := S8x1024x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x1024x1024.size a
  hwx0_3 : ∀ i : grid0.Coords, EltTy.bits .f32 = 32 ∨ (Rect.block (s := S8x1024x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S8x1024x1024.size a
  hwx0_4 : ∀ i : grid0.Coords, EltTy.bits .f32 = 32 ∨ (Rect.block (s := S8x1024x1024) S1x256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S1x1024x1024.size a
  hwx0_5 : ∀ i : grid0.Coords, EltTy.bits .f32 = 32 ∨ (Rect.block (s := S1x1024x1024) S1x256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S1x1024x1024.size a
  hwx0_6 : ∀ i : grid0.Coords, EltTy.bits .f32 = 32 ∨ (Rect.block (s := S1x1024x1024) S1x256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S1x1024x1024.size a
  hwx0_7 : ∀ i : grid0.Coords, EltTy.bits .f32 = 32 ∨ (Rect.block (s := S1x1024x1024) S1x256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x1024.size a ≤ S1x1024x1024.size a
  hwx0_8 : ∀ i : grid0.Coords, EltTy.bits .f32 = 32 ∨ (Rect.block (s := S1x1024x1024) S1x256x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S512x1024.size a
  hwx0_9 : ∀ i : grid0.Coords, EltTy.bits .f32 = 32 ∨ (Rect.block (s := S512x1024) S512x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x512.size a ≤ S8x1024x512.size a
  hwx0_11 : ∀ i : grid0.Coords, EltTy.bits .f32 = 32 ∨ (Rect.block (s := S8x1024x512) S1x256x512.size (cc0_transform_11 i) (hinb0_11 i)).WholeWords (EltTy.packing .f32)

variable [Facts₀]

def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf

abbrev win0_0 : Pipeline.Window sig grid0 :=
  Pipeline.Window.ofSpec (Memref.whole main_v1) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x256x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1x256x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1x256x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S512x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x256x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x1024 : Shape := ⟨2, ![8, 1024]⟩
abbrev S8x1024x1024 : Shape := ⟨3, ![8, 1024, 1024]⟩
abbrev S1x1024x1024 : Shape := ⟨3, ![1, 1024, 1024]⟩
abbrev S512x1024 : Shape := ⟨2, ![512, 1024]⟩
abbrev S512 : Shape := ⟨1, ![512]⟩
abbrev S8x1x1024 : Shape := ⟨3, ![8, 1, 1024]⟩
abbrev S8x1024x1 : Shape := ⟨3, ![8, 1024, 1]⟩
abbrev S_ : Shape := ⟨0, ![]⟩
abbrev S8x1024x512 : Shape := ⟨3, ![8, 1024, 512]⟩
abbrev S1x1x512 : Shape := ⟨3, ![1, 1, 512]⟩

abbrev nBuf : Space → Nat
  | .hbm => 74
  | .vmem => 0
  | .smem => 0
  | _ => 0

abbrev bufTy : (tb : Table) → Fin (tcTables nBuf tb) → BufTy
  | .hbm, ⟨0, _⟩ => ⟨S8x1024, .i32⟩
  | .hbm, ⟨1, _⟩ => ⟨S8x1024x1024, .f32⟩
  | .hbm, ⟨2, _⟩ => ⟨S8x1024x1024, .f32⟩
  | .hbm, ⟨3, _⟩ => ⟨S8x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S512x1024, .f32⟩
  | .hbm, ⟨9, _⟩ => ⟨S512, .f32⟩
  | .hbm, ⟨10, _⟩ => ⟨S8x1024, .f32⟩
  | .hbm, ⟨11, _⟩ => ⟨S8x1x1024, .f32⟩
  | .hbm, ⟨12, _⟩ => ⟨S8x1024x1, .f32⟩
  | .hbm, ⟨13, _⟩ => ⟨S1x1024x1024, .f32⟩
  | .hbm, ⟨14, _⟩ => ⟨S_, .f32⟩
  | .hbm, ⟨15, _⟩ => ⟨S1x1024x1024, .f32⟩
  | .hbm, ⟨16, _⟩ => ⟨S1x1024x1024, .f32⟩
  | .hbm, ⟨17, _⟩ => ⟨S1x1024x1024, .f32⟩
  | .hbm, ⟨18, _⟩ => ⟨S1x1024x1024, .f32⟩
  | .hbm, ⟨19, _⟩ => ⟨S_, .f32⟩
  | .hbm, ⟨20, _⟩ => ⟨S1x1024x1024, .f32⟩
  | .hbm, ⟨21, _⟩ => ⟨S1x1024x1024, .f32⟩
  | .hbm, ⟨22, _⟩ => ⟨S1x1024x1024, .f32⟩
  | .hbm, ⟨23, _⟩ => ⟨S8x1024x1024, .f32⟩
  | .hbm, ⟨24, _⟩ => ⟨S8x1024x1024, .f32⟩
  | .hbm, ⟨25, _⟩ => ⟨S1x1024x1024, .f32⟩
  | .hbm, ⟨26, _⟩ => ⟨S8x1024x1024, .f32⟩
  | .hbm, ⟨27, _⟩ => ⟨S8x1024x1024, .f32⟩
  | .hbm, ⟨28, _⟩ => ⟨S8x1024x1024, .f32⟩
  | .hbm, ⟨29, _⟩ => ⟨S_, .f32⟩
  | .hbm, ⟨30, _⟩ => ⟨S8x1024x1024, .f32⟩
  | .hbm, ⟨31, _⟩ => ⟨S8x1024x1024, .f32⟩
  | .hbm, ⟨32, _⟩ => ⟨S8x1024x1024, .f32⟩
  | .hbm, ⟨33, _⟩ => ⟨S8x1024x1024, .f32⟩
  | .hbm, ⟨34, _⟩ => ⟨S8x1024x1024, .f32⟩
  | .hbm, ⟨35, _⟩ => ⟨S1x1024x1024, .f32⟩
  | .hbm, ⟨36, _⟩ => ⟨S8x1024x1024, .f32⟩
  | .hbm, ⟨37, _⟩ => ⟨S8x1024x1024, .f32⟩
  | .hbm, ⟨38, _⟩ => ⟨S8x1024x1024, .f32⟩
  | .hbm, ⟨39, _⟩ => ⟨S_, .f32⟩
  | .hbm, ⟨40, _⟩ => ⟨S8x1024x1024, .f32⟩
  | .hbm, ⟨41, _⟩ => ⟨S8x1024x1024, .f32⟩
  | .hbm, ⟨42, _⟩ => ⟨S8x1024x1024, .f32⟩
  | .hbm, ⟨43, _⟩ => ⟨S_, .f32⟩
  | .hbm, ⟨44, _⟩ => ⟨S8x1024x1, .f32⟩
  | .hbm, ⟨45, _⟩ => ⟨S8x1024x1, .i1⟩
  | .hbm, ⟨46, _⟩ => ⟨S8x1024x1, .f32⟩
  | .hbm, ⟨47, _⟩ => ⟨S_, .f32⟩
  | .hbm, ⟨48, _⟩ => ⟨S8x1x1024, .f32⟩
  | .hbm, ⟨49, _⟩ => ⟨S8x1x1024, .i1⟩
  | .hbm, ⟨50, _⟩ => ⟨S8x1x1024, .f32⟩
  | .hbm, ⟨51, _⟩ => ⟨S_, .f32⟩
  | .hbm, ⟨52, _⟩ => ⟨S8x1024x1024, .f32⟩
  | .hbm, ⟨53, _⟩ => ⟨S8x1024x1024, .f32⟩
  | .hbm, ⟨54, _⟩ => ⟨S8x1024x1024, .f32⟩
  | .hbm, ⟨55, _⟩ => ⟨S8x1024x1024, .f32⟩
  | .hbm, ⟨56, _⟩ => ⟨S8x1024x1024, .f32⟩
  | .hbm, ⟨57, _⟩ => ⟨S8x1024x1024, .f32⟩
  | .hbm, ⟨58, _⟩ => ⟨S8x1024x1024, .f32⟩
  | .hbm, ⟨59, _⟩ => ⟨S8x1024x1024, .f32⟩
  | .hbm, ⟨60, _⟩ => ⟨S8x1024x1024, .f32⟩
  | .hbm, ⟨61, _⟩ => ⟨S8x1024x1024, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8x1024x1024, .f32⟩
  | .hbm, ⟨66, _⟩ => ⟨S8x1024x1024, .f32⟩
  | .hbm, ⟨67, _⟩ => ⟨S_, .f32⟩
  | .hbm, ⟨68, _⟩ => ⟨S8x1024x1024, .f32⟩
  | .hbm, ⟨69, _⟩ => ⟨S8x1024x1024, .f32⟩
  | .hbm, ⟨70, _⟩ => ⟨S8x1024x512, .f32⟩
  | .hbm, ⟨71, _⟩ => ⟨S1x1x512, .f32⟩
  | .hbm, ⟨72, _⟩ => ⟨S8x1024x512, .f32⟩
  | .hbm, ⟨73, _⟩ => ⟨S8x1024x512, .f32⟩
  | _, _ => ⟨S8x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_cst_7 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  bcast_S8x1024_S8x1x1024_0_2 : S8x1024.BroadcastsInDim S8x1x1024 (![0, 2] : Fin 2 → Fin S8x1x1024.rank)
  bcast_S8x1024_S8x1024x1_0_1 : S8x1024.BroadcastsInDim S8x1024x1 (![0, 1] : Fin 2 → Fin S8x1024x1.rank)
  bcast_S_S1x1024x1024 : S_.BroadcastsInDim S1x1024x1024 (![] : Fin 0 → Fin S1x1024x1024.rank)
  bcast_S1x1024x1024_S8x1024x1024_0_1_2 : S1x1024x1024.BroadcastsInDim S8x1024x1024 (![0, 1, 2] : Fin 3 → Fin S8x1024x1024.rank)
  bcast_S8x1x1024_S8x1024x1024_0_1_2 : S8x1x1024.BroadcastsInDim S8x1024x1024 (![0, 1, 2] : Fin 3 → Fin S8x1024x1024.rank)
  bcast_S_S8x1024x1024 : S_.BroadcastsInDim S8x1024x1024 (![] : Fin 0 → Fin S8x1024x1024.rank)
  bcast_S8x1024x1_S8x1024x1024_0_1_2 : S8x1024x1.BroadcastsInDim S8x1024x1024 (![0, 1, 2] : Fin 3 → Fin S8x1024x1024.rank)
  bcast_S_S8x1024x1 : S_.BroadcastsInDim S8x1024x1 (![] : Fin 0 → Fin S8x1024x1.rank)
  bcast_S_S8x1x1024 : S_.BroadcastsInDim S8x1x1024 (![] : Fin 0 → Fin S8x1x1024.rank)
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  dot_S8x1024x1024_S512x1024_S8x1024x512_2_1_01_0_n_n_wf : DotDims.WF S8x1024x1024 S512x1024 S8x1024x512 [2] [1] [0, 1] [0] [] []

variable [Facts₀]

def dot_S8x1024x1024_S512x1024_S8x1024x512_2_1_01_0_n_n : DotDims S8x1024x1024 S512x1024 S8x1024x512 where
  lhsContracting := [2]
  rhsContracting := [1]
  lhsNonContracting := [0, 1]
  rhsNonContracting := [0]
  lhsBatch := []
  rhsBatch := []
  wf := dot_S8x1024x1024_S512x1024_S8x1024x512_2_1_01_0_n_n_wf

class Facts : Prop extends Facts₀ where

variable [Facts]
-- ==== Proof.Spec.lean ====
/-
  The update of a spike-driven attention matrix followed by a linear read-out, as one function of the inputs.

  For batch b, post-synaptic row R and pre-synaptic column j, with s the spike counts read as numbers,

    pre'  = pre_trace(b,R,j)  · e^(−dt / e^(τ_pre(R,j)))  + s(b,j) · e^(w_pre(R,j))  · dt
    post' = post_trace(b,R,j) · e^(−dt / e^(τ_post(R,j))) + s(b,R) · e^(w_post(R,j)) · dt
    a'    = clip( a + (1 − a) · (pre' · [s(b,R) ≠ 0]) − a · (post' · [s(b,j) ≠ 0]),  −1/2, 3/2 )

  and the result is  out(b,R,e) = Σ_j a'(b,R,j) · W(e,j) + bias(e).  The constants dt, −dt, 1, −1/2, 3/2 are kept as
  the float words the programs print (both programs print the same words), every operation is the exact one on the
  extended reals, and the parenthesisation above is the one both programs use, so no law of arithmetic beyond
  reordering the sum over j is needed to compare them.
-/
import Idealize.ShloMosaic.PureOps.Ideal
import Idealize.ShloMosaic.PureOps.Ideal.Laws
import Idealize.ShloMosaic.Lib.ValueIdx

noncomputable section

open scoped BigOperators

namespace Cert.Stdp

open Idealize.ShloMosaic Idealize.ShloMosaic.ValueIdx

/-- The indicator of "not zero" as a number: 1 where the value differs from zero, 0 where it is zero. -/
def mask (x : EReal) : EReal := (((Ideal.cmp .une x (Ideal.ofBits .f32 0x00000000#32)).toNat : ℝ) : EReal)

/-- The same indicator spelt through a 32-bit word: the one-bit answer widened without sign and then read as a signed
    integer is still 0 or 1, and "ordered and different" is "different" where nothing is unordered. -/
theorem mask_widened (x : EReal) :
    ((((Ideal.cmp .one x (Ideal.ofBits .f32 0x00000000#32)).setWidth 32).toInt : ℝ) : EReal) = mask x := by
  have h : ∀ b : BitVec 1, (b.setWidth 32).toInt = (b.toNat : ℤ) := by decide
  show ((((Ideal.cmp .une x (Ideal.ofBits .f32 0x00000000#32)).setWidth 32).toInt : ℝ) : EReal) = _
  rw [h, Int.cast_natCast]
  rfl

/-- The factor a trace keeps over one step: e^(−dt / e^τ). -/
def decay (tau : EReal) : EReal := Ideal.exp (Ideal.div (Ideal.ofBits .f32 0xBA83126F#32) (Ideal.exp tau))

/-- A trace after one step: what it keeps, plus the spike's contribution s · e^w · dt. -/
def trace (tr tau spike w : EReal) : EReal :=
  tr * decay tau + spike * Ideal.exp w * Ideal.ofBits .f32 0x3A83126F#32

/-- The new attention entry from the two spike counts, the two traces, the old entry and the four latent parameters. -/
def cell (pre post ptr potr att lpw lpsw lptau lpstau : EReal) : EReal :=
  min (Ideal.ofBits .f32 0x3FC00000#32) (max (Ideal.ofBits .f32 0xBF000000#32)
    (att + (Ideal.ofBits .f32 0x3F800000#32 - att) * (trace ptr lptau pre lpw * mask post)
      - att * (trace potr lpstau post lpsw * mask pre)))

/-- The spike count of neuron n in batch b as a number. -/
def spike (s : (⟨2, ![8, 1024]⟩ : Shape).Idx → BitVec 32) (b : Fin 8) (n : Fin 1024) : EReal :=
  (((s (ix2 b n)).toInt : ℝ) : EReal)

/-- The new attention entry (b, R, j). The latent parameters have one batch entry, shared by all batches. -/
def attn (s : (⟨2, ![8, 1024]⟩ : Shape).Idx → BitVec 32)
    (ptr potr att : (⟨3, ![8, 1024, 1024]⟩ : Shape).Idx → EReal)
    (lpw lpsw lptau lpstau : (⟨3, ![1, 1024, 1024]⟩ : Shape).Idx → EReal)
    (b : Fin 8) (R j : Fin 1024) : EReal :=
  cell (spike s b j) (spike s b R) (ptr (ix3 b R j)) (potr (ix3 b R j)) (att (ix3 b R j))
    (lpw (ix3 (0 : Fin 1) R j)) (lpsw (ix3 (0 : Fin 1) R j)) (lptau (ix3 (0 : Fin 1) R j)) (lpstau (ix3 (0 : Fin 1) R j))

/-- The read-out at (b, R, e): the new attention row against row e of the weights, plus the bias. -/
def outAt (s : (⟨2, ![8, 1024]⟩ : Shape).Idx → BitVec 32)
    (ptr potr att : (⟨3, ![8, 1024, 1024]⟩ : Shape).Idx → EReal)
    (lpw lpsw lptau lpstau : (⟨3, ![1, 1024, 1024]⟩ : Shape).Idx → EReal)
    (vw : (⟨2, ![512, 1024]⟩ : Shape).Idx → EReal) (vb : (⟨1, ![512]⟩ : Shape).Idx → EReal)
    (b : Fin 8) (R : Fin 1024) (e : Fin 512) : EReal :=
  (∑ j : Fin 1024, attn s ptr potr att lpw lpsw lptau lpstau b R j * vw (ix2 e j)) + vb (ix1 e)

/-- The whole result array. -/
def out (s : (⟨2, ![8, 1024]⟩ : Shape).Idx → BitVec 32)
    (ptr potr att : (⟨3, ![8, 1024, 1024]⟩ : Shape).Idx → EReal)
    (lpw lpsw lptau lpstau : (⟨3, ![1, 1024, 1024]⟩ : Shape).Idx → EReal)
    (vw : (⟨2, ![512, 1024]⟩ : Shape).Idx → EReal) (vb : (⟨1, ![512]⟩ : Shape).Idx → EReal) :
    (⟨3, ![8, 1024, 512]⟩ : Shape).Idx → EReal :=
  fun i => outAt s ptr potr att lpw lpsw lptau lpstau vw vb (i 0) (i 1) (i 2)

theorem out_ix3 (s : (⟨2, ![8, 1024]⟩ : Shape).Idx → BitVec 32)
    (ptr potr att : (⟨3, ![8, 1024, 1024]⟩ : Shape).Idx → EReal)
    (lpw lpsw lptau lpstau : (⟨3, ![1, 1024, 1024]⟩ : Shape).Idx → EReal)
    (vw : (⟨2, ![512, 1024]⟩ : Shape).Idx → EReal) (vb : (⟨1, ![512]⟩ : Shape).Idx → EReal)
    (b : Fin 8) (R : Fin 1024) (e : Fin 512) :
    out s ptr potr att lpw lpsw lptau lpstau vw vb (ix3 b R e) = outAt s ptr potr att lpw lpsw lptau lpstau vw vb b R e := rfl

end Cert.Stdp

end
-- ==== Proof.RefValue.lean ====
/-
  The reference program computes the specified read-out.

  Its operations are read one at a time at an index: every broadcast of the reference reads its operand at the index
  with the repeated axis put to 0 (the spike row at (b, 0, j), the spike column at (b, R, 0), a latent parameter at
  (0, R, j)), every other operation before the product is entry by entry, and the product's entry (b, R, e) is the sum
  over j of the clipped attention entry (b, R, j) times W(e, j).
-/
import proofs.«173536_j74457553043516_2_alg».proof.Proof.RefRead
import proofs.«173536_j74457553043516_2_alg».proof.Proof.Spec

noncomputable section

open scoped BigOperators

namespace Cert.ReferenceIdeal.RefValue

open Cert.ReferenceIdeal Cert.ReferenceIdeal.ReadP Idealize.ShloMosaic Idealize.ShloMosaic.ValueIdx

/-! ## Where each broadcast reads its operand -/

theorem row_of (b : Fin 8) (u : Fin 1) (j : Fin 1024) : idx_main_v1 (ix3 b u j) = ix2 b j :=
  funext fun a => Fin.ext (by match a with | ⟨0, _⟩ => rfl | ⟨1, _⟩ => rfl)

theorem col_of (b : Fin 8) (R : Fin 1024) (u : Fin 1) : idx_main_v2 (ix3 b R u) = ix2 b R :=
  funext fun a => Fin.ext (by match a with | ⟨0, _⟩ => rfl | ⟨1, _⟩ => rfl)

theorem lat11 (b : Fin 8) (R j : Fin 1024) : idx_main_v11 (ix3 b R j) = ix3 (0 : Fin 1) R j :=
  funext fun a => Fin.ext (by match a with | ⟨0, _⟩ => rfl | ⟨1, _⟩ => rfl | ⟨2, _⟩ => rfl)

theorem lat15 (b : Fin 8) (R j : Fin 1024) : idx_main_v15 (ix3 b R j) = ix3 (0 : Fin 1) R j :=
  funext fun a => Fin.ext (by match a with | ⟨0, _⟩ => rfl | ⟨1, _⟩ => rfl | ⟨2, _⟩ => rfl)

theorem lat20 (b : Fin 8) (R j : Fin 1024) : idx_main_v20 (ix3 b R j) = ix3 (0 : Fin 1) R j :=
  funext fun a => Fin.ext (by match a with | ⟨0, _⟩ => rfl | ⟨1, _⟩ => rfl | ⟨2, _⟩ => rfl)

theorem lat24 (b : Fin 8) (R j : Fin 1024) : idx_main_v24 (ix3 b R j) = ix3 (0 : Fin 1) R j :=
  funext fun a => Fin.ext (by match a with | ⟨0, _⟩ => rfl | ⟨1, _⟩ => rfl | ⟨2, _⟩ => rfl)

theorem rowb14 (b : Fin 8) (R j : Fin 1024) : idx_main_v14 (ix3 b R j) = ix3 b (0 : Fin 1) j :=
  funext fun a => Fin.ext (by match a with | ⟨0, _⟩ => rfl | ⟨1, _⟩ => rfl | ⟨2, _⟩ => rfl)

theorem rowb41 (b : Fin 8) (R j : Fin 1024) : idx_main_v41 (ix3 b R j) = ix3 b (0 : Fin 1) j :=
  funext fun a => Fin.ext (by match a with | ⟨0, _⟩ => rfl | ⟨1, _⟩ => rfl | ⟨2, _⟩ => rfl)

theorem colb23 (b : Fin 8) (R j : Fin 1024) : idx_main_v23 (ix3 b R j) = ix3 b R (0 : Fin 1) :=
  funext fun a => Fin.ext (by match a with | ⟨0, _⟩ => rfl | ⟨1, _⟩ => rfl | ⟨2, _⟩ => rfl)

theorem colb37 (b : Fin 8) (R j : Fin 1024) : idx_main_v37 (ix3 b R j) = ix3 b R (0 : Fin 1) :=
  funext fun a => Fin.ext (by match a with | ⟨0, _⟩ => rfl | ⟨1, _⟩ => rfl | ⟨2, _⟩ => rfl)

/-! ## The clipped attention entry -/

/-- The reference's clipped attention array at (b, R, j) is the specified entry. -/
theorem clipped_apply (x0 : (⟨S8x1024, .i32⟩ : BufTy).Contents (Elt Ideal))
    (x1 x2 x3 : (⟨S8x1024x1024, .f32⟩ : BufTy).Contents (Elt Ideal))
    (x4 x5 x6 x7 : (⟨S1x1024x1024, .f32⟩ : BufTy).Contents (Elt Ideal)) (b : Fin 8) (R j : Fin 1024) :
    val_main_v45 (F := Ideal) x0 x1 x2 x3 x4 x5 x6 x7 (ix3 b R j) = Cert.Stdp.attn x0 x1 x2 x3 x4 x5 x6 x7 b R j := by
  simp only [val_main_v45_apply, val_main_call0_v4_apply, val_main_call0_v3_apply, val_main_cst_7_apply,
    val_main_call0_v2_apply, val_main_call0_v1_apply, val_main_call0_v0_apply, val_main_cst_6_apply,
    val_main_v44_apply, val_main_v43_apply, val_main_v42_apply, val_main_v41_apply, val_main_v40_apply,
    val_main_v39_apply, val_main_v38_apply, val_main_v37_apply, val_main_v36_apply, val_main_v35_apply,
    val_main_cst_5_apply, val_main_v34_apply, val_main_v33_apply, val_main_v32_apply, val_main_cst_4_apply,
    val_main_v31_apply, val_main_v30_apply, val_main_v29_apply, val_main_cst_3_apply, val_main_v28_apply,
    val_main_v27_apply, val_main_v26_apply, val_main_cst_2_apply, val_main_v25_apply, val_main_v24_apply,
    val_main_v23_apply, val_main_v22_apply, val_main_v21_apply, val_main_v20_apply, val_main_v19_apply,
    val_main_v18_apply, val_main_v17_apply, val_main_cst_1_apply, val_main_v16_apply, val_main_v15_apply,
    val_main_v14_apply, val_main_v13_apply, val_main_v12_apply, val_main_v11_apply, val_main_v10_apply,
    val_main_v9_apply, val_main_v8_apply, val_main_cst_0_apply, val_main_v7_apply, val_main_v6_apply,
    val_main_v5_apply, val_main_v4_apply, val_main_cst_apply, val_main_v3_apply, val_main_v2_apply,
    val_main_v1_apply, val_main_v0_apply,
    lat11, lat15, lat20, lat24, rowb14, rowb41, colb23, colb37, row_of, col_of]
  rfl

/-! ## The read-out -/

theorem lhs_of (b : Fin 8) (R : Fin 1024) (e : Fin 512) (k : Fin 1024) : lidx_main_v46 (ix3 b R e) k = ix3 b R k :=
  funext fun a => Fin.ext (by match a with | ⟨0, _⟩ => rfl | ⟨1, _⟩ => rfl | ⟨2, _⟩ => rfl)

theorem rhs_of (b : Fin 8) (R : Fin 1024) (e : Fin 512) (k : Fin 1024) : ridx_main_v46 (ix3 b R e) k = ix2 e k :=
  funext fun a => Fin.ext (by match a with | ⟨0, _⟩ => rfl | ⟨1, _⟩ => rfl)

theorem bias_of (b : Fin 8) (R : Fin 1024) (e : Fin 512) : idx_main_v47 (idx_main_v48 (ix3 b R e)) = ix1 e :=
  funext fun a => Fin.ext (by match a with | ⟨0, _⟩ => rfl)

/-- The reference's result array is the specified read-out of its arguments. -/
theorem result_eq (x0 : (⟨S8x1024, .i32⟩ : BufTy).Contents (Elt Ideal))
    (x1 x2 x3 : (⟨S8x1024x1024, .f32⟩ : BufTy).Contents (Elt Ideal))
    (x4 x5 x6 x7 : (⟨S1x1024x1024, .f32⟩ : BufTy).Contents (Elt Ideal))
    (x8 : (⟨S512x1024, .f32⟩ : BufTy).Contents (Elt Ideal)) (x9 : (⟨S512, .f32⟩ : BufTy).Contents (Elt Ideal)) :
    val_main_v49 (F := Ideal) x0 x1 x2 x3 x4 x5 x6 x7 x8 x9 = Cert.Stdp.out x0 x1 x2 x3 x4 x5 x6 x7 x8 x9 := by
  funext i
  obtain ⟨b, R, e, rfl⟩ : ∃ (b : Fin 8) (R : Fin 1024) (e : Fin 512), i = ix3 b R e := ⟨i 0, i 1, i 2, eq_ix3 i⟩
  rw [Cert.Stdp.out_ix3, val_main_v49_apply, val_main_v46_apply, val_main_v48_apply, val_main_v47_apply, bias_of]
  unfold Cert.Stdp.outAt
  refine congrArg (· + x9 (ix1 e)) (Finset.sum_congr rfl fun k _ => ?_)
  rw [lhs_of, rhs_of, clipped_apply]

end Cert.ReferenceIdeal.RefValue

end
-- ==== Proof.LibDotT.lean ====
/-
  A matrix product with the right operand transposed, read at an entry.

  For a product of an [M, K] array with an [N, K] array that contracts the LAST axis of both (dimension numbers
  [1], [1], [0], [0], no batch axis) into a zero accumulator, the (p, q) entry over the extended reals is
  Σ_k l (p, k) · r (q, k). The statement takes the two facts about the dimension record that are decided by
  unfolding it at a concrete record (the operands' leading coordinates follow the result's), so that it serves
  every extent.
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-- The (p, q) entry of `l · rᵀ` accumulated from zero is the sum over the shared last axis. -/
theorem matmulT_zero_apply {M N K : Nat} {φ₁ φ₂ : FTy}
    (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (hl0 : ∀ j k, (d.lhsIdx j k 0).val = (j 0).val) (hr0 : ∀ j k, (d.rhsIdx j k 0).val = (j 1).val)
    (prec : Option ContractPrecision)
    (l : FVec Ideal ⟨2, ![M, K]⟩ φ₁) (r : FVec Ideal ⟨2, ![N, K]⟩ φ₂) (p : Fin M) (q : Fin N) :
    matmul d prec l r (constant (F := Ideal) ⟨2, ![M, N]⟩ .f32 0x00000000#32) (ix2 p q)
      = ∑ k : Fin K, l (ix2 p k) * r (ix2 q k) := by
  refine (Ideal.matmul_constant_zero_apply d prec l r (ix2 p q)).trans ?_
  rw [← Equiv.sum_comp (contrEquiv1 d K hrank hsize).symm]
  refine Finset.sum_congr rfl fun k _ => ?_
  have e1 : d.lhsIdx (ix2 p q) ((contrEquiv1 d K hrank hsize).symm k) = ix2 p k := by
    funext a; apply Fin.ext
    match a with
    | ⟨0, _⟩ => exact hl0 _ _
    | ⟨1, _⟩ => exact (d.lhsIdx_val_of_single hl _ _).trans (contrEquiv1_symm_val d K hrank hsize k)
  have e2 : d.rhsIdx (ix2 p q) ((contrEquiv1 d K hrank hsize).symm k) = ix2 q k := by
    funext a; apply Fin.ext
    match a with
    | ⟨0, _⟩ => exact hr0 _ _
    | ⟨1, _⟩ => exact (d.rhsIdx_val_of_single hr _ _).trans (contrEquiv1_symm_val d K hrank hsize k)
  rw [e1, e2]

end Cert.LibDotT

end
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.KernelCell.lean ====
/-
  What one grid point of the kernel computes, entry by entry.

  A grid point holds one batch b and one tile of 256 post-synaptic rows. Its body reads the spike row of the batch
  (1 × 1024), the tile's spike column (256 × 1), the tile of each trace, of the attention matrix and of the four latent
  parameters (256 × 1024 each), all the weights (512 × 1024) and the bias row, updates the attention tile entry by entry,
  and multiplies the clipped tile by the transposed weights. Entry (r, e) of what it stores is therefore
  Σ_j cell(…)(r, j) · W(e, j) + bias(e), with the cell of the specification evaluated on the loaded entries: the row
  broadcast reads the spike row at (0, j), the column broadcast the spike column at (r, 0), the casts that drop the
  leading unit axis keep (r, j), and the product with the transposed weights is the sum over the shared last axis.
-/
import proofs.«173536_j74457553043516_2_alg».proof.Proof.Gen.KernelIdeal.Value
import proofs.«173536_j74457553043516_2_alg».proof.Proof.Spec
import proofs.«173536_j74457553043516_2_alg».proof.Proof.LibDotT
import proofs.«173536_j74457553043516_2_alg».proof.Proof.LibLayout
import Idealize.ShloMosaic.Lib.ValueLayout

noncomputable section

open scoped BigOperators

namespace Cert.KernelIdeal.BlockValue

open Cert.KernelIdeal Cert.KernelIdeal.Gen Idealize.ShloMosaic Idealize.ShloMosaic.ValueIdx

/-- The exponential of a vector, entry by entry. -/
theorem exp_apply {s : Shape} {φ : FTy} (x : FVec Ideal s φ) (i : s.Idx) : exp x i = Ideal.exp (x i) := rfl

/-- The kernel's indicator — compare with zero, widen the bit to a word, read the word as a signed integer — is the
    specification's indicator of "not zero". -/
theorem mask_word (x : EReal) :
    FloatOps.sitofp (F := Ideal) .f32
        (BitVec.setWidth 32 (FloatOps.cmpf (F := Ideal) (φ := .f32) .one x (FloatOps.ofBits .f32 0x00000000#32)))
      = Cert.Stdp.mask x :=
  Cert.Stdp.mask_widened x

/-- The block index (0, r, e) sits over entry (r, e) of the body's result. -/
theorem out_idx (r : Fin 256) (e : Fin 512) : Value.ix11_0 (ix3 (0 : Fin 1) r e) = ix2 r e :=
  funext fun a => Fin.ext (by match a with | ⟨0, _⟩ => rfl | ⟨1, _⟩ => rfl)

/-- Entry (0, r, e) of the block the body leaves, from the loaded blocks P0 … P10 (in the order the body loads them:
    spike row, spike column, post weight, post time constant, pre trace, pre time constant, pre weight, post trace,
    attention, weights, bias). -/
theorem block_apply (P0 : Vec Ideal S1x1x1024 .i32) (P1 : Vec Ideal S1x256x1 .i32)
    (P2 P3 P4 P5 P6 P7 P8 : Vec Ideal S1x256x1024 .f32) (P9 : Vec Ideal S512x1024 .f32) (P10 : Vec Ideal S1x512 .f32)
    (r : Fin 256) (e : Fin 512) :
    Value.E11 (F := Ideal) P0 P1 P2 P3 P4 P5 P6 P7 P8 P9 P10 (ix3 (0 : Fin 1) r e)
      = (∑ j : Fin 1024,
          Cert.Stdp.cell (FloatOps.sitofp (F := Ideal) .f32 (P0 (ix3 (0 : Fin 1) (0 : Fin 1) j)))
            (FloatOps.sitofp (F := Ideal) .f32 (P1 (ix3 (0 : Fin 1) r (0 : Fin 1))))
            (P4 (ix3 (0 : Fin 1) r j)) (P7 (ix3 (0 : Fin 1) r j)) (P8 (ix3 (0 : Fin 1) r j))
            (P6 (ix3 (0 : Fin 1) r j)) (P2 (ix3 (0 : Fin 1) r j)) (P5 (ix3 (0 : Fin 1) r j)) (P3 (ix3 (0 : Fin 1) r j))
          * P9 (ix2 e j))
        + P10 (ix2 (0 : Fin 1) e) := by
  show k0_pay7 _ _ _ _ _ P7 P8 P9 P10 (Value.ix11_0 (ix3 (0 : Fin 1) r e)) = _
  rw [out_idx]
  unfold k0_pay7
  refine (addf_apply _ _ _).trans ?_
  rw [Cert.LibDotT.matmulT_zero_apply dot_S256x1024_S512x1024_S256x512_1_1_0_0_n_n rfl rfl rfl rfl (fun _ _ => rfl) (fun _ _ => rfl)]
  simp only [minimumf_apply, maximumf_apply, subf_apply, addf_apply, mulf_apply, divf_apply, broadcast_apply, truncf_apply,
    exp_apply, sitofp_apply, extui_apply, cmpf_apply, shapeCast_1ab_ab_apply, broadcastTo_1b_ab_apply,
    broadcastTo_a1_ab_apply, shapeCast_self, mask_word]
  rfl

/-! ## The same, from what the blocks hold of the arrays -/

theorem hz3 : (![0, 0, 0] : Fin 3 → Nat) = fun _ => 0 := funext fun a => by fin_cases a <;> rfl
theorem hz2 : (![0, 0] : Fin 2 → Nat) = fun _ => 0 := funext fun a => by fin_cases a <;> rfl

/-- Row r of tile q of the 1024 rows. -/
def tileRow (q : Fin 4) (r : Fin 256) : Fin 1024 := ⟨q.val * 256 + r.val, by have := q.isLt; have := r.isLt; omega⟩

/-- If the staged blocks x0 … x10 hold batch B's and tile q's part of the arrays (the spike row and column of batch B,
    rows q·256 + r of the traces, of the attention matrix and of the latent parameters, the whole weights and bias), then
    the block the body leaves in the output's staging buffer holds, at (0, r, e), the specified read-out at
    (B, q·256 + r, e). -/
theorem body_value (x0 : Vec Ideal S1x1x1024 .i32) (x1 : Vec Ideal S1x256x1 .i32)
    (x2 x3 x4 x5 x6 x7 x8 : Vec Ideal S1x256x1024 .f32) (x9 : Vec Ideal S512x1024 .f32) (x10 : Vec Ideal S1x512 .f32)
    (s : (⟨2, ![8, 1024]⟩ : Shape).Idx → BitVec 32)
    (a1 a2 a3 : (⟨3, ![8, 1024, 1024]⟩ : Shape).Idx → EReal)
    (a4 a5 a6 a7 : (⟨3, ![1, 1024, 1024]⟩ : Shape).Idx → EReal)
    (a8 : (⟨2, ![512, 1024]⟩ : Shape).Idx → EReal) (a9 : (⟨1, ![512]⟩ : Shape).Idx → EReal)
    (B : Fin 8) (q : Fin 4)
    (h0 : ∀ j : Fin 1024, x0 (ix3 (0 : Fin 1) (0 : Fin 1) j) = s (ix2 B j))
    (h1 : ∀ r : Fin 256, x1 (ix3 (0 : Fin 1) r (0 : Fin 1)) = s (ix2 B (tileRow q r)))
    (h2 : ∀ (r : Fin 256) (j : Fin 1024), x2 (ix3 (0 : Fin 1) r j) = a1 (ix3 B (tileRow q r) j))
    (h3 : ∀ (r : Fin 256) (j : Fin 1024), x3 (ix3 (0 : Fin 1) r j) = a2 (ix3 B (tileRow q r) j))
    (h4 : ∀ (r : Fin 256) (j : Fin 1024), x4 (ix3 (0 : Fin 1) r j) = a3 (ix3 B (tileRow q r) j))
    (h5 : ∀ (r : Fin 256) (j : Fin 1024), x5 (ix3 (0 : Fin 1) r j) = a4 (ix3 (0 : Fin 1) (tileRow q r) j))
    (h6 : ∀ (r : Fin 256) (j : Fin 1024), x6 (ix3 (0 : Fin 1) r j) = a5 (ix3 (0 : Fin 1) (tileRow q r) j))
    (h7 : ∀ (r : Fin 256) (j : Fin 1024), x7 (ix3 (0 : Fin 1) r j) = a6 (ix3 (0 : Fin 1) (tileRow q r) j))
    (h8 : ∀ (r : Fin 256) (j : Fin 1024), x8 (ix3 (0 : Fin 1) r j) = a7 (ix3 (0 : Fin 1) (tileRow q r) j))
    (h9 : ∀ (e : Fin 512) (j : Fin 1024), x9 (ix2 e j) = a8 (ix2 e j))
    (h10 : ∀ e : Fin 512, x10 (ix2 (0 : Fin 1) e) = a9 (ix1 e))
    (r : Fin 256) (e : Fin 512) :
    out0_11 (F := Ideal) x0 x1 x2 x3 x4 x5 x6 x7 x8 x9 x10 (ix3 (0 : Fin 1) r e)
      = Cert.Stdp.outAt s a1 a2 a3 a4 a5 a6 a7 a8 a9 B (tileRow q r) e := by
  unfold out0_11
  rw [Value.canon11_eq]
  simp only [View.ld_unit_zero (S := S1x1x1024) hz3, View.ld_unit_zero (S := S1x256x1) hz3,
    View.ld_unit_zero (S := S1x256x1024) hz3, View.ld_unit_zero (S := S512x1024) hz2, View.ld_unit_zero (S := S1x512) hz2]
  rw [block_apply, h10]
  unfold Cert.Stdp.outAt Cert.Stdp.attn Cert.Stdp.spike
  refine congrArg (· + a9 (ix1 e)) (Finset.sum_congr rfl fun j _ => ?_)
  rw [h0, h1, h2, h3, h4, h5, h6, h7, h8, h9]
  rfl

end Cert.KernelIdeal.BlockValue

end
-- ==== Proof.Blocks.lean ====
/-
  From the grid points' blocks to the whole result array.

  The grid has 8 × 4 points: point (b, q) stages batch b's spike row, rows q·256 … q·256 + 255 of batch b's spike column,
  traces and attention matrix, the same rows of the four latent parameters (which have one batch entry), all the weights
  and the bias, and writes back rows q·256 … of batch b of the result. The block index of every window at every point is
  decided over the 32 points; an element of a block sits in its array at block index × block size + its own coordinate.
  So what point (b, q) writes back is the block of the specified read-out, the 32 blocks tile the result array, and the
  array ends holding the specified read-out of the argument arrays.
-/
import proofs.«173536_j74457553043516_2_alg».proof.Proof.KernelCell
import Idealize.ShloMosaic.Lib.StableHlo.Run

noncomputable section

namespace Cert.KernelIdeal.ArrayValue

open Cert.KernelIdeal Cert.KernelIdeal.Gen Cert.KernelIdeal.BlockValue Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The three arrays the host lays out before the launch -/

/-- The spike counts as 8 rows [8, 1, 1024]. -/
theorem spikeRows_eq (c : Dev nD) : (V m c main_v1 : S8x1x1024.Idx → BitVec 32)
    = shapeCast S8x1x1024 (m ((c : Thread nD τ).loc main_arg0)) shapeCasts_S8x1024_S8x1x1024 := by
  dsimp only [V, hostOps0]; after_results; rfl

/-- The spike counts as 8 columns [8, 1024, 1]. -/
theorem spikeCols_eq (c : Dev nD) : (V m c main_v2 : S8x1024x1.Idx → BitVec 32)
    = shapeCast S8x1024x1 (m ((c : Thread nD τ).loc main_arg0)) shapeCasts_S8x1024_S8x1024x1 := by
  dsimp only [V, hostOps0]; after_results; rfl

/-- The bias as a row [1, 512]. -/
theorem biasRow_eq (c : Dev nD) : (V m c main_v0 : S1x512.Idx → EReal)
    = shapeCast S1x512 (m ((c : Thread nD τ).loc main_arg9)) shapeCasts_S512_S1x512 := by
  dsimp only [V, hostOps0]; after_results; rfl

/-! ## The block index of every window at every grid point, decided over the 32 points -/

/-- The output's block index is (batch, tile, 0). -/
theorem idx_out : ∀ t : Fin cfg0.N, win0_11.index t (0 : Fin 3) < 8 ∧ win0_11.index t (1 : Fin 3) < 4 ∧ win0_11.index t (2 : Fin 3) = 0 :=
  (by decide +kernel : ∀ t : Fin grid0.N, _)
/-- Every (batch, tile) is some point's. -/
theorem idx_onto : ∀ (b : Fin 8) (q : Fin 4), ∃ t : Fin cfg0.N, win0_11.index t = ![b.val, q.val, 0] :=
  (by decide +kernel : ∀ (b : Fin 8) (q : Fin 4), ∃ t : Fin grid0.N, win0_11.index t = ![b.val, q.val, 0])
theorem idx_row : ∀ t : Fin cfg0.N, win0_0.index t (0 : Fin 3) = win0_11.index t (0 : Fin 3) ∧ win0_0.index t (1 : Fin 3) = 0 ∧ win0_0.index t (2 : Fin 3) = 0 :=
  (by decide +kernel : ∀ t : Fin grid0.N, _)
theorem idx_col : ∀ t : Fin cfg0.N, win0_1.index t (0 : Fin 3) = win0_11.index t (0 : Fin 3) ∧ win0_1.index t (1 : Fin 3) = win0_11.index t (1 : Fin 3) ∧ win0_1.index t (2 : Fin 3) = 0 :=
  (by decide +kernel : ∀ t : Fin grid0.N, _)
theorem idx_w2 : ∀ t : Fin cfg0.N, win0_2.index t (0 : Fin 3) = win0_11.index t (0 : Fin 3) ∧ win0_2.index t (1 : Fin 3) = win0_11.index t (1 : Fin 3) ∧ win0_2.index t (2 : Fin 3) = 0 :=
  (by decide +kernel : ∀ t : Fin grid0.N, _)
theorem idx_w3 : ∀ t : Fin cfg0.N, win0_3.index t (0 : Fin 3) = win0_11.index t (0 : Fin 3) ∧ win0_3.index t (1 : Fin 3) = win0_11.index t (1 : Fin 3) ∧ win0_3.index t (2 : Fin 3) = 0 :=
  (by decide +kernel : ∀ t : Fin grid0.N, _)
theorem idx_w4 : ∀ t : Fin cfg0.N, win0_4.index t (0 : Fin 3) = win0_11.index t (0 : Fin 3) ∧ win0_4.index t (1 : Fin 3) = win0_11.index t (1 : Fin 3) ∧ win0_4.index t (2 : Fin 3) = 0 :=
  (by decide +kernel : ∀ t : Fin grid0.N, _)
theorem idx_w5 : ∀ t : Fin cfg0.N, win0_5.index t (0 : Fin 3) = 0 ∧ win0_5.index t (1 : Fin 3) = win0_11.index t (1 : Fin 3) ∧ win0_5.index t (2 : Fin 3) = 0 :=
  (by decide +kernel : ∀ t : Fin grid0.N, _)
theorem idx_w6 : ∀ t : Fin cfg0.N, win0_6.index t (0 : Fin 3) = 0 ∧ win0_6.index t (1 : Fin 3) = win0_11.index t (1 : Fin 3) ∧ win0_6.index t (2 : Fin 3) = 0 :=
  (by decide +kernel : ∀ t : Fin grid0.N, _)
theorem idx_w7 : ∀ t : Fin cfg0.N, win0_7.index t (0 : Fin 3) = 0 ∧ win0_7.index t (1 : Fin 3) = win0_11.index t (1 : Fin 3) ∧ win0_7.index t (2 : Fin 3) = 0 :=
  (by decide +kernel : ∀ t : Fin grid0.N, _)
theorem idx_w8 : ∀ t : Fin cfg0.N, win0_8.index t (0 : Fin 3) = 0 ∧ win0_8.index t (1 : Fin 3) = win0_11.index t (1 : Fin 3) ∧ win0_8.index t (2 : Fin 3) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)

/-! ## What each input window's block holds of its array -/

/-- The spike row staged at a point of batch B is batch B's spike counts. -/
theorem read0 (c : Dev nD) (t : Fin cfg0.N) (B : Fin 8) (hB : win0_11.index t (0 : Fin 3) = B.val) (j : Fin 1024) :
    iblk m c 0 t (ix3 (0 : Fin 1) (0 : Fin 1) j) = (m ((c : Thread nD τ).loc main_arg0)) (ix2 B j) := by
  obtain ⟨e0, e1, e2⟩ := idx_row t
  show V m c main_v1 (((cfg0.win 0).blk t).view.emb (ix3 (0 : Fin 1) (0 : Fin 1) j)) = _
  rw [spikeRows_eq]
  refine shapeCast_apply _ _ _ (ix2 B j) ?_
  rw [Shape.rowMajor_val_two, Shape.rowMajor_val_three]
  show B.val * 1024 + j.val = ((win0_0.index t (0 : Fin 3) * 1 + 1 * 0) * 1 + (win0_0.index t (1 : Fin 3) * 1 + 1 * 0)) * 1024 + (win0_0.index t (2 : Fin 3) * 1024 + 1 * j.val)
  omega

/-- The spike column staged at a point of batch B and tile q is entries q·256 + r of batch B's spike counts. -/
theorem read1 (c : Dev nD) (t : Fin cfg0.N) (B : Fin 8) (q : Fin 4) (hB : win0_11.index t (0 : Fin 3) = B.val)
    (hq : win0_11.index t (1 : Fin 3) = q.val) (r : Fin 256) :
    iblk m c 1 t (ix3 (0 : Fin 1) r (0 : Fin 1)) = (m ((c : Thread nD τ).loc main_arg0)) (ix2 B (tileRow q r)) := by
  obtain ⟨e0, e1, e2⟩ := idx_col t
  show V m c main_v2 (((cfg0.win 1).blk t).view.emb (ix3 (0 : Fin 1) r (0 : Fin 1))) = _
  rw [spikeCols_eq]
  refine shapeCast_apply _ _ _ (ix2 B (tileRow q r)) ?_
  rw [Shape.rowMajor_val_two, Shape.rowMajor_val_three]
  show B.val * 1024 + (q.val * 256 + r.val) = ((win0_1.index t (0 : Fin 3) * 1 + 1 * 0) * 1024 + (win0_1.index t (1 : Fin 3) * 256 + 1 * r.val)) * 1 + (win0_1.index t (2 : Fin 3) * 1 + 1 * 0)
  omega

/-- Window 2's block at a point of batch B and tile q is rows q·256 + r of batch B of its array. -/
theorem read2 (c : Dev nD) (t : Fin cfg0.N) (B : Fin 8) (q : Fin 4) (hB : win0_11.index t (0 : Fin 3) = B.val)
    (hq : win0_11.index t (1 : Fin 3) = q.val) (r : Fin 256) (j : Fin 1024) :
    iblk m c 2 t (ix3 (0 : Fin 1) r j) = (m ((c : Thread nD τ).loc main_arg1)) (ix3 B (tileRow q r) j) := by
  obtain ⟨e0, e1, e2⟩ := idx_w2 t
  show V m c main_arg1 (((cfg0.win 2).blk t).view.emb (ix3 (0 : Fin 1) r j)) = _
  rw [V_main_arg1]
  refine congrArg _ (funext fun a => Fin.ext ?_)
  match a with
  | ⟨0, _⟩ => show win0_2.index t (0 : Fin 3) * 1 + 1 * 0 = B.val; omega
  | ⟨1, _⟩ => show win0_2.index t (1 : Fin 3) * 256 + 1 * r.val = q.val * 256 + r.val; omega
  | ⟨2, _⟩ => show win0_2.index t (2 : Fin 3) * 1024 + 1 * j.val = j.val; omega

/-- Window 3's block at a point of batch B and tile q is rows q·256 + r of batch B of its array. -/
theorem read3 (c : Dev nD) (t : Fin cfg0.N) (B : Fin 8) (q : Fin 4) (hB : win0_11.index t (0 : Fin 3) = B.val)
    (hq : win0_11.index t (1 : Fin 3) = q.val) (r : Fin 256) (j : Fin 1024) :
    iblk m c 3 t (ix3 (0 : Fin 1) r j) = (m ((c : Thread nD τ).loc main_arg2)) (ix3 B (tileRow q r) j) := by
  obtain ⟨e0, e1, e2⟩ := idx_w3 t
  show V m c main_arg2 (((cfg0.win 3).blk t).view.emb (ix3 (0 : Fin 1) r j)) = _
  rw [V_main_arg2]
  refine congrArg _ (funext fun a => Fin.ext ?_)
  match a with
  | ⟨0, _⟩ => show win0_3.index t (0 : Fin 3) * 1 + 1 * 0 = B.val; omega
  | ⟨1, _⟩ => show win0_3.index t (1 : Fin 3) * 256 + 1 * r.val = q.val * 256 + r.val; omega
  | ⟨2, _⟩ => show win0_3.index t (2 : Fin 3) * 1024 + 1 * j.val = j.val; omega

/-- Window 4's block at a point of batch B and tile q is rows q·256 + r of batch B of its array. -/
theorem read4 (c : Dev nD) (t : Fin cfg0.N) (B : Fin 8) (q : Fin 4) (hB : win0_11.index t (0 : Fin 3) = B.val)
    (hq : win0_11.index t (1 : Fin 3) = q.val) (r : Fin 256) (j : Fin 1024) :
    iblk m c 4 t (ix3 (0 : Fin 1) r j) = (m ((c : Thread nD τ).loc main_arg3)) (ix3 B (tileRow q r) j) := by
  obtain ⟨e0, e1, e2⟩ := idx_w4 t
  show V m c main_arg3 (((cfg0.win 4).blk t).view.emb (ix3 (0 : Fin 1) r j)) = _
  rw [V_main_arg3]
  refine congrArg _ (funext fun a => Fin.ext ?_)
  match a with
  | ⟨0, _⟩ => show win0_4.index t (0 : Fin 3) * 1 + 1 * 0 = B.val; omega
  | ⟨1, _⟩ => show win0_4.index t (1 : Fin 3) * 256 + 1 * r.val = q.val * 256 + r.val; omega
  | ⟨2, _⟩ => show win0_4.index t (2 : Fin 3) * 1024 + 1 * j.val = j.val; omega

/-- Window 5's block at a point of tile q is rows q·256 + r of its array's one batch entry. -/
theorem read5 (c : Dev nD) (t : Fin cfg0.N) (q : Fin 4) (hq : win0_11.index t (1 : Fin 3) = q.val) (r : Fin 256) (j : Fin 1024) :
    iblk m c 5 t (ix3 (0 : Fin 1) r j) = (m ((c : Thread nD τ).loc main_arg4)) (ix3 (0 : Fin 1) (tileRow q r) j) := by
  obtain ⟨e0, e1, e2⟩ := idx_w5 t
  show V m c main_arg4 (((cfg0.win 5).blk t).view.emb (ix3 (0 : Fin 1) r j)) = _
  rw [V_main_arg4]
  refine congrArg _ (funext fun a => Fin.ext ?_)
  match a with
  | ⟨0, _⟩ => show win0_5.index t (0 : Fin 3) * 1 + 1 * 0 = 0; omega
  | ⟨1, _⟩ => show win0_5.index t (1 : Fin 3) * 256 + 1 * r.val = q.val * 256 + r.val; omega
  | ⟨2, _⟩ => show win0_5.index t (2 : Fin 3) * 1024 + 1 * j.val = j.val; omega

/-- Window 6's block at a point of tile q is rows q·256 + r of its array's one batch entry. -/
theorem read6 (c : Dev nD) (t : Fin cfg0.N) (q : Fin 4) (hq : win0_11.index t (1 : Fin 3) = q.val) (r : Fin 256) (j : Fin 1024) :
    iblk m c 6 t (ix3 (0 : Fin 1) r j) = (m ((c : Thread nD τ).loc main_arg5)) (ix3 (0 : Fin 1) (tileRow q r) j) := by
  obtain ⟨e0, e1, e2⟩ := idx_w6 t
  show V m c main_arg5 (((cfg0.win 6).blk t).view.emb (ix3 (0 : Fin 1) r j)) = _
  rw [V_main_arg5]
  refine congrArg _ (funext fun a => Fin.ext ?_)
  match a with
  | ⟨0, _⟩ => show win0_6.index t (0 : Fin 3) * 1 + 1 * 0 = 0; omega
  | ⟨1, _⟩ => show win0_6.index t (1 : Fin 3) * 256 + 1 * r.val = q.val * 256 + r.val; omega
  | ⟨2, _⟩ => show win0_6.index t (2 : Fin 3) * 1024 + 1 * j.val = j.val; omega

/-- Window 7's block at a point of tile q is rows q·256 + r of its array's one batch entry. -/
theorem read7 (c : Dev nD) (t : Fin cfg0.N) (q : Fin 4) (hq : win0_11.index t (1 : Fin 3) = q.val) (r : Fin 256) (j : Fin 1024) :
    iblk m c 7 t (ix3 (0 : Fin 1) r j) = (m ((c : Thread nD τ).loc main_arg6)) (ix3 (0 : Fin 1) (tileRow q r) j) := by
  obtain ⟨e0, e1, e2⟩ := idx_w7 t
  show V m c main_arg6 (((cfg0.win 7).blk t).view.emb (ix3 (0 : Fin 1) r j)) = _
  rw [V_main_arg6]
  refine congrArg _ (funext fun a => Fin.ext ?_)
  match a with
  | ⟨0, _⟩ => show win0_7.index t (0 : Fin 3) * 1 + 1 * 0 = 0; omega
  | ⟨1, _⟩ => show win0_7.index t (1 : Fin 3) * 256 + 1 * r.val = q.val * 256 + r.val; omega
  | ⟨2, _⟩ => show win0_7.index t (2 : Fin 3) * 1024 + 1 * j.val = j.val; omega

/-- Window 8's block at a point of tile q is rows q·256 + r of its array's one batch entry. -/
theorem read8 (c : Dev nD) (t : Fin cfg0.N) (q : Fin 4) (hq : win0_11.index t (1 : Fin 3) = q.val) (r : Fin 256) (j : Fin 1024) :
    iblk m c 8 t (ix3 (0 : Fin 1) r j) = (m ((c : Thread nD τ).loc main_arg7)) (ix3 (0 : Fin 1) (tileRow q r) j) := by
  obtain ⟨e0, e1, e2⟩ := idx_w8 t
  show V m c main_arg7 (((cfg0.win 8).blk t).view.emb (ix3 (0 : Fin 1) r j)) = _
  rw [V_main_arg7]
  refine congrArg _ (funext fun a => Fin.ext ?_)
  match a with
  | ⟨0, _⟩ => show win0_8.index t (0 : Fin 3) * 1 + 1 * 0 = 0; omega
  | ⟨1, _⟩ => show win0_8.index t (1 : Fin 3) * 256 + 1 * r.val = q.val * 256 + r.val; omega
  | ⟨2, _⟩ => show win0_8.index t (2 : Fin 3) * 1024 + 1 * j.val = j.val; omega

/-- The weights are staged whole. -/
theorem read9 (c : Dev nD) (t : Fin cfg0.N) (e : Fin 512) (j : Fin 1024) :
    iblk m c 9 t (ix2 e j) = (m ((c : Thread nD τ).loc main_arg8)) (ix2 e j) := by
  obtain ⟨e0, e1⟩ := idx_w9 t
  show V m c main_arg8 (((cfg0.win 9).blk t).view.emb (ix2 e j)) = _
  rw [V_main_arg8]
  refine congrArg _ (funext fun a => Fin.ext ?_)
  match a with
  | ⟨0, _⟩ => show win0_9.index t (0 : Fin 2) * 512 + 1 * e.val = e.val; omega
  | ⟨1, _⟩ => show win0_9.index t (1 : Fin 2) * 1024 + 1 * j.val = j.val; omega

/-- The bias row is staged whole. -/
theorem read10 (c : Dev nD) (t : Fin cfg0.N) (e : Fin 512) :
    iblk m c 10 t (ix2 (0 : Fin 1) e) = (m ((c : Thread nD τ).loc main_arg9)) (ix1 e) := by
  obtain ⟨e0, e1⟩ := idx_w10 t
  show V m c main_v0 (((cfg0.win 10).blk t).view.emb (ix2 (0 : Fin 1) e)) = _
  rw [biasRow_eq]
  refine shapeCast_apply _ _ _ (ix1 e) ?_
  rw [Shape.rowMajor_val_one, Shape.rowMajor_val_two]
  show e.val = (win0_10.index t (0 : Fin 2) * 1 + 1 * 0) * 512 + (win0_10.index t (1 : Fin 2) * 512 + 1 * e.val)
  omega

/-! ## What a point writes back, the cover, the array -/

/-- What point t writes back is block t of the specified read-out of the argument arrays. -/
theorem flushed_eq (c : Dev nD) (t : Fin cfg0.N) :
    (dats m 0 c).flushed 11 t = ((cfg0.win 11).blk t).view.read (Elt Ideal)
      (Cert.Stdp.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Value.flushed11]
  obtain ⟨hB, hq, hz⟩ := idx_out t
  obtain ⟨B, hB'⟩ : ∃ B : Fin 8, win0_11.index t (0 : Fin 3) = B.val := ⟨⟨_, hB⟩, rfl⟩
  obtain ⟨q, hq'⟩ : ∃ q : Fin 4, win0_11.index t (1 : Fin 3) = q.val := ⟨⟨_, hq⟩, rfl⟩
  funext y
  have hy0 : (y 0).val < 1 := (y 0).isLt
  obtain ⟨r, hr⟩ : ∃ r : Fin 256, (y 1).val = r.val := ⟨⟨(y 1).val, (y 1).isLt⟩, rfl⟩
  obtain ⟨e, he⟩ : ∃ e : Fin 512, (y 2).val = e.val := ⟨⟨(y 2).val, (y 2).isLt⟩, rfl⟩
  have hy : y = ix3 (0 : Fin 1) r e := funext fun a => Fin.ext (by
    match a with
    | ⟨0, _⟩ => show (y 0).val = 0; omega
    | ⟨1, _⟩ => exact hr
    | ⟨2, _⟩ => exact he)
  have hemb : ((cfg0.win 11).blk t).view.emb y = ix3 B (tileRow q r) e := funext fun a => Fin.ext (by
    match a with
    | ⟨0, _⟩ => show win0_11.index t (0 : Fin 3) * 1 + 1 * (y 0).val = B.val; omega
    | ⟨1, _⟩ => show win0_11.index t (1 : Fin 3) * 256 + 1 * (y 1).val = q.val * 256 + r.val; omega
    | ⟨2, _⟩ => show win0_11.index t (2 : Fin 3) * 512 + 1 * (y 2).val = e.val; omega)
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = Cert.Stdp.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 11).blk t).view.emb y)
  rw [hemb, Cert.Stdp.out_ix3]
  refine (congrArg (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)) hy).trans ?_
  exact body_value (iblk m c 0 t) (iblk m c 1 t) (iblk m c 2 t) (iblk m c 3 t) (iblk m c 4 t) (iblk m c 5 t) (iblk m c 6 t) (iblk m c 7 t) (iblk m c 8 t) (iblk m c 9 t) (iblk m c 10 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) B q
    (fun j => read0 m c t B hB' j) (fun r => read1 m c t B q hB' hq' r)
    (fun r j => read2 m c t B q hB' hq' r j) (fun r j => read3 m c t B q hB' hq' r j) (fun r j => read4 m c t B q hB' hq' r j)
    (fun r j => read5 m c t q hq' r j) (fun r j => read6 m c t q hq' r j) (fun r j => read7 m c t q hq' r j) (fun r j => read8 m c t q hq' r j)
    (fun e j => read9 m c t e j) (fun e => read10 m c t e) r e

/-- An index of the result array is in point t's block iff each coordinate is in the block's range on its axis. -/
theorem mem_blk (t : Fin cfg0.N) (i : S8x1024x512.Idx) :
    i ∈ ((cfg0.win 11).blk t).view.set ↔ ∀ a : Fin 3, win0_11.index t a * S1x256x512.size a ≤ (i a).val ∧ (i a).val < win0_11.index t a * S1x256x512.size a + S1x256x512.size a := by
  show i ∈ ((View.whole main_v3).slice (win0_11.rect t)).set ↔ _
  rw [View.set_slice_whole, Rect.mem_set_unit]
  exact Iff.rfl

/-- The 32 blocks cover the result array: index (b, R, e) is in the block of the point of batch b and tile R / 256. -/
theorem covered (i : S8x1024x512.Idx) : ∃ t : Fin cfg0.N, (cfg0.win 11).flush t = true ∧ i ∈ ((cfg0.win 11).blk t).view.set := by
  have hi0 : (i 0).val < 8 := (i 0).isLt
  have hi1 : (i 1).val < 1024 := (i 1).isLt
  have hi2 : (i 2).val < 512 := (i 2).isLt
  obtain ⟨t, ht⟩ := idx_onto ⟨(i 0).val, hi0⟩ ⟨(i 1).val / 256, by omega⟩
  have q0 : win0_11.index t (0 : Fin 3) = (i 0).val := congrFun ht 0
  have q1 : win0_11.index t (1 : Fin 3) = (i 1).val / 256 := congrFun ht 1
  have q2 : win0_11.index t (2 : Fin 3) = 0 := congrFun ht 2
  refine ⟨t, flush0_11 t, ?_⟩
  rw [mem_blk]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 256 ≤ (i 1).val ∧ (i 1).val < win0_11.index t (1 : Fin 3) * 256 + 256; omega
  | ⟨2, _⟩ => show win0_11.index t (2 : Fin 3) * 512 ≤ (i 2).val ∧ (i 2).val < win0_11.index t (2 : Fin 3) * 512 + 512; omega

/-- The result array after the run is the specified read-out of the argument arrays. -/
theorem final (c : Dev nD) : (dats m 0 c).arrAt 11 cfg0.N
    = Cert.Stdp.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 11 _ (fun t _ => flushed_eq m c t) covered

/-- The kernel's run: it terminates without a fault, the result array holds the specified read-out of the argument
    arrays, and the argument arrays are unchanged. -/
theorem run : θ_run defs (onTc (τ := τ) (main (F := Ideal))) ⟨m, fun _ => 0, ρ⟩ fun r => ∀ c : Dev nD,
      r.2.mem ((c : Thread nD τ).loc main_v3) = Cert.Stdp.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
    :=
  (θ_run defs _ _).mono (fun r h c => ⟨(h c).1.trans (final m c), (h c).2⟩) (Value.run_blocks m ρ)

end Cert.KernelIdeal.ArrayValue

end
-- ==== Proof.lean ====
/-
  A spike-driven update of an attention matrix followed by a linear read-out: the tiled kernel against the whole-array
  reference, over the extended reals.

  Both programs compute, for batch b, post-synaptic row R and output feature e,
      out(b, R, e) = Σ_j a'(b, R, j) · W(e, j) + bias(e),
  where a' is the attention entry after one step of the two decaying spike traces, clipped to [−1/2, 3/2]
  (Proof/Spec.lean states it once, with the parenthesisation and the float constants both programs share).
  The reference does this on whole arrays [8, 1024, 1024] and contracts with the weights in one product; the kernel works
  on 32 grid points, one batch and one tile of 256 rows each, and multiplies the clipped tile by the transposed weights.
  Entry by entry the two are the same expression: the only differences are how the repeated axes are read (broadcasts
  against blocks), the spelling of the indicator of a non-zero spike count (a one-bit comparison read unsigned, against
  the same bit widened to a word and read signed; ordered-and-different against different, where nothing is unordered),
  a rounding to a narrower float format before the product (the identity on the extended reals), and the product itself
  (a matrix unit's accumulation from zero against the host's contraction: both the sum over j). No law of arithmetic that
  could fail at an infinity is used, so the finiteness of the inputs is never opened.

  Proof/KernelCell.lean reads one grid point's stored block entry by entry; Proof/Blocks.lean identifies each staged block
  with its part of the argument arrays, shows the 32 written blocks tile the result, and re-posts the kernel's run with the
  result array named; Proof/RefValue.lean reads the reference's operations at an index; here the two runs are set side by
  side. The idealized kernel is the kernel's own text read over the extended reals, so there is nothing to preserve.
-/
import proofs.«173536_j74457553043516_2_alg».proof.Defs
import proofs.«173536_j74457553043516_2_alg».proof.Proof.Gen.Kernel
import proofs.«173536_j74457553043516_2_alg».proof.Proof.Gen.Kernel.Skeleton
import proofs.«173536_j74457553043516_2_alg».proof.Proof.Gen.Kernel.Launch
import proofs.«173536_j74457553043516_2_alg».proof.Proof.Gen.Kernel.Points
import proofs.«173536_j74457553043516_2_alg».proof.Proof.Gen.Kernel.Frame
import proofs.«173536_j74457553043516_2_alg».proof.Proof.Gen.KernelIdeal
import proofs.«173536_j74457553043516_2_alg».proof.Proof.Gen.KernelIdeal.Skeleton
import proofs.«173536_j74457553043516_2_alg».proof.Proof.Gen.KernelIdeal.Launch
import proofs.«173536_j74457553043516_2_alg».proof.Proof.Gen.KernelIdeal.Points
import proofs.«173536_j74457553043516_2_alg».proof.Proof.Gen.KernelIdeal.Frame
import proofs.«173536_j74457553043516_2_alg».proof.Proof.Gen.ReferenceIdeal
import proofs.«173536_j74457553043516_2_alg».proof.Proof.Gen.Pre_finite_inputs
import proofs.«173536_j74457553043516_2_alg».proof.Proof.Gen.KernelIdeal.Value
import proofs.«173536_j74457553043516_2_alg».proof.Proof.RefRun
import proofs.«173536_j74457553043516_2_alg».proof.Proof.RefRead
import proofs.«173536_j74457553043516_2_alg».proof.Proof.RefValue
import proofs.«173536_j74457553043516_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- And the reference: its run, with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- From memories that agree on the ten arguments both programs end with the specified read-out of those arguments in
    their result arrays: the kernel by its blocks, the reference operation by operation. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨?_, (h c).2⟩)
    (Cert.ReferenceIdeal.ValueP.run (F := Ideal) m' ρ')
  obtain ⟨g0, g1, g2, g3, g4, g5, g6, g7, g8, g9⟩ := hagree c
  refine ((h c).1.trans ((Cert.ReferenceIdeal.ReadP.val_main_v49_eq _ _ _ _ _ _ _ _ _ _).trans
    (Cert.ReferenceIdeal.RefValue.result_eq _ _ _ _ _ _ _ _ _ _))).trans ?_
  rw [g0, g1, g2, g3, g4, g5, g6, g7, g8, g9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
